-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S128x7 : Shape := ⟨2, ![128, 7]⟩
abbrev S7 : Shape := ⟨1, ![7]⟩
abbrev S14x1 : Shape := ⟨2, ![14, 1]⟩
abbrev S1 : Shape := ⟨1, ![1]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S128x7 : S_.BroadcastsInDim S128x7 (![] : Fin 0 → Fin S128x7.rank)
  reducesTo_S128x7_S_d0_1 : S128x7.ReducesTo [0, 1] S_
  bcast_S_S7 : S_.BroadcastsInDim S7 (![] : Fin 0 → Fin S7.rank)
  reducesTo_S7_S_d0 : S7.ReducesTo [0] S_
  bcast_S_S14x1 : S_.BroadcastsInDim S14x1 (![] : Fin 0 → Fin S14x1.rank)
  reducesTo_S14x1_S_d0_1 : S14x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S14x1 1) : IVec S_ 1 :=
  let main_c_5 : IVec S_ 1 := constantI S_ 1 1#1
  let main_v17 : IVec S_ 1 := (fun x v => Host.reduce IntOp.andi x v reducesTo_S14x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S262144x128 .f32) (main_arg1 : FVec F S128x7 .f32) (main_arg2 : FVec F S7 .f32) (main_arg3 : FVec F S14x1 .f32) (main_arg4 : FVec F S1 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S128x7 .f32 := Host.absf main_arg1
  let main_cst_0 : FVec F S_ .f32 := constant S_ .f32 0x7F800000#32
  let main_v5 : FVec F S128x7 .f32 := broadcastInDim S128x7 ![] bcast_S_S128x7 main_cst_0
  let main_v6 : IVec S128x7 1 := cmpf .olt main_v4 main_v5
  let main_c_1 : IVec S_ 1 := constantI S_ 1 1#1
  let main_v7 : IVec S_ 1 := (fun x v => Host.reduce IntOp.andi x v reducesTo_S128x7_S_d0_1 h_S_) main_v6 main_c_1
  let main_v8 : IVec S_ 1 := andi main_v3 main_v7
  let main_v9 : FVec F S7 .f32 := Host.absf main_arg2
  let main_cst_2 : FVec F S_ .f32 := constant S_ .f32 0x7F800000#32
  let main_v10 : FVec F S7 .f32 := broadcastInDim S7 ![] bcast_S_S7 main_cst_2
  let main_v11 : IVec S7 1 := cmpf .olt main_v9 main_v10
  let main_c_3 : IVec S_ 1 := constantI S_ 1 1#1
  let main_v12 : IVec S_ 1 := (fun x v => Host.reduce IntOp.andi x v reducesTo_S7_S_d0 h_S_) main_v11 main_c_3
  let main_v13 : IVec S_ 1 := andi main_v8 main_v12
  let main_v14 : FVec F S14x1 .f32 := Host.absf main_arg3
  let main_cst_4 : FVec F S_ .f32 := constant S_ .f32 0x7F800000#32
  let main_v15 : FVec F S14x1 .f32 := broadcastInDim S14x1 ![] bcast_S_S14x1 main_cst_4
  let main_v16 : IVec S14x1 1 := cmpf .olt main_v14 main_v15
  fn_part1 (F := F) main_arg4 main_v13 main_v16
-- ==== Kernel.lean ====
abbrev S262144x128 : Shape := ⟨2, ![262144, 128]⟩
abbrev S128x7 : Shape := ⟨2, ![128, 7]⟩
abbrev S7 : Shape := ⟨1, ![7]⟩
abbrev S14x1 : Shape := ⟨2, ![14, 1]⟩
abbrev S1 : Shape := ⟨1, ![1]⟩
abbrev S1x7 : Shape := ⟨2, ![1, 7]⟩
abbrev S1x1 : Shape := ⟨2, ![1, 1]⟩
abbrev S7x1 : Shape := ⟨2, ![7, 1]⟩
abbrev S262144x256 : Shape := ⟨2, ![262144, 256]⟩
abbrev S16384x128 : Shape := ⟨2, ![16384, 128]⟩
abbrev S16384x256 : Shape := ⟨2, ![16384, 256]⟩
abbrev S16384x7 : Shape := ⟨2, ![16384, 7]⟩
abbrev S16384 : Shape := ⟨1, ![16384]⟩
abbrev S16384x1 : Shape := ⟨2, ![16384, 1]⟩

abbrev nBuf : Space → Nat
  | .hbm => 14
  | .vmem => 9
  | .smem => 0
  | _ => 0

abbrev bufTy : (tb : Table) → Fin (tcTables nBuf tb) → BufTy
  | .hbm, ⟨0, _⟩ => ⟨S262144x128, .f32⟩
  | .hbm, ⟨1, _⟩ => ⟨S128x7, .f32⟩
  | .hbm, ⟨2, _⟩ => ⟨S7, .f32⟩
  | .hbm, ⟨3, _⟩ => ⟨S14x1, .f32⟩
  | .hbm, ⟨4, _⟩ => ⟨S1, .f32⟩
  | .hbm, ⟨5, _⟩ => ⟨S1x7, .f32⟩
  | .hbm, ⟨6, _⟩ => ⟨S1x1, .f32⟩
  | .hbm, ⟨7, _⟩ => ⟨S7x1, .f32⟩
  | .hbm, ⟨8, _⟩ => ⟨S7, .f32⟩
  | .hbm, ⟨9, _⟩ => ⟨S1x7, .f32⟩
  | .hbm, ⟨10, _⟩ => ⟨S7x1, .f32⟩
  | .hbm, ⟨11, _⟩ => ⟨S7, .f32⟩
  | .hbm, ⟨12, _⟩ => ⟨S1x7, .f32⟩
  | .hbm, ⟨13, _⟩ => ⟨S262144x256, .f32⟩
  | .local _ .vmem, ⟨0, _⟩ => ⟨S16384x128, .f32⟩
  | .local _ .vmem, ⟨1, _⟩ => ⟨S16384x128, .f32⟩
  | .local _ .vmem, ⟨2, _⟩ => ⟨S128x7, .f32⟩
  | .local _ .vmem, ⟨3, _⟩ => ⟨S1x7, .f32⟩
  | .local _ .vmem, ⟨4, _⟩ => ⟨S1x7, .f32⟩
  | .local _ .vmem, ⟨5, _⟩ => ⟨S1x7, .f32⟩
  | .local _ .vmem, ⟨6, _⟩ => ⟨S1x1, .f32⟩
  | .local _ .vmem, ⟨7, _⟩ => ⟨S16384x256, .f32⟩
  | .local _ .vmem, ⟨8, _⟩ => ⟨S16384x256, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x7 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16384x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S7_S1x7 : S7.ShapeCasts S1x7
  shapeCasts_S1_S1x1 : S1.ShapeCasts S1x1
  slices_S14x1_S7x1_0_0 : S14x1.Slices ![0, 0] S7x1
  shapeCasts_S7x1_S7 : S7x1.ShapeCasts S7
  slices_S14x1_S7x1_7_0 : S14x1.Slices ![7, 0] S7x1
  inb_S16384x128_S16384x128_0_0 : ∀ a, (![0, 0] : Fin 2 → Nat) a + S16384x128.size a ≤ S16384x128.size a
  h_S16384x128 : 0 < S16384x128.numel
  inb_S128x7_S128x7_0_0 : ∀ a, (![0, 0] : Fin 2 → Nat) a + S128x7.size a ≤ S128x7.size a
  h_S128x7 : 0 < S128x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S16384x7 : S1x7.Broadcasts S16384x7
  reduces_S16384x7_S16384 : S16384x7.Reduces [1] S16384
  shapeCasts_S16384_S16384x1 : S16384.ShapeCasts S16384x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S16384x1 : S1x1.Broadcasts S16384x1
  shapeCasts_S16384x1_S16384x1 : S16384x1.ShapeCasts S16384x1
  broadcasts_S16384x1_S16384x256 : S16384x1.Broadcasts S16384x256
  inb_S16384x256_S16384x256_0_0 : ∀ a, (![0, 0] : Fin 2 → Nat) a + S16384x256.size a ≤ S16384x256.size a
  h_S16384x256 : 0 < S16384x256.numel
  dot_S16384x128_S128x7_S16384x7_1_0_0_1_n_n_wf : DotDims.WF S16384x128 S128x7 S16384x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S262144x128.size a
  hwx0_0 : ∀ i : grid0.Coords, EltTy.bits .f32 = 32 ∨ (Rect.block (s := S262144x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x7.size a ≤ S128x7.size a
  hwx0_1 : ∀ i : grid0.Coords, EltTy.bits .f32 = 32 ∨ (Rect.block (s := S128x7) S128x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x7.size a ≤ S1x7.size a
  hwx0_2 : ∀ i : grid0.Coords, EltTy.bits .f32 = 32 ∨ (Rect.block (s := S1x7) S1x7.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x7.size a ≤ S1x7.size a
  hwx0_3 : ∀ i : grid0.Coords, EltTy.bits .f32 = 32 ∨ (Rect.block (s := S1x7) S1x7.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x7.size a ≤ S1x7.size a
  hwx0_4 : ∀ i : grid0.Coords, EltTy.bits .f32 = 32 ∨ (Rect.block (s := S1x7) S1x7.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16384x256.size a ≤ S262144x256.size a
  hwx0_6 : ∀ i : grid0.Coords, EltTy.bits .f32 = 32 ∨ (Rect.block (s := S262144x256) S16384x256.size (cc0_transform_6 i) (hinb0_6 i)).WholeWords (EltTy.packing .f32)

variable [Facts₀]

def dot_S16384x128_S128x7_S16384x7_1_0_0_1_n_n : DotDims S16384x128 S128x7 S16384x7 where
  lhsContracting := [1]
  rhsContracting := [0]
  lhsNonContracting := [0]
  rhsNonContracting := [1]
  lhsBatch := []
  rhsBatch := []
  wf := dot_S16384x128_S128x7_S16384x7_1_0_0_1_n_n_wf

abbrev win0_0 : Pipeline.Window sig grid0 :=
  Pipeline.Window.ofSpec (Memref.whole main_arg0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x7.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x7.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x7.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x7.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S16384x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S262144x128 : Shape := ⟨2, ![262144, 128]⟩
abbrev S128x7 : Shape := ⟨2, ![128, 7]⟩
abbrev S7 : Shape := ⟨1, ![7]⟩
abbrev S14x1 : Shape := ⟨2, ![14, 1]⟩
abbrev S1 : Shape := ⟨1, ![1]⟩
abbrev S262144x7 : Shape := ⟨2, ![262144, 7]⟩
abbrev S1x7 : Shape := ⟨2, ![1, 7]⟩
abbrev S262144x14 : Shape := ⟨2, ![262144, 14]⟩
abbrev S262144x1 : Shape := ⟨2, ![262144, 1]⟩
abbrev S1x1 : Shape := ⟨2, ![1, 1]⟩
abbrev S262144x256 : Shape := ⟨2, ![262144, 256]⟩

abbrev nBuf : Space → Nat
  | .hbm => 17
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S128x7, .f32⟩
  | .hbm, ⟨2, _⟩ => ⟨S7, .f32⟩
  | .hbm, ⟨3, _⟩ => ⟨S14x1, .f32⟩
  | .hbm, ⟨4, _⟩ => ⟨S1, .f32⟩
  | .hbm, ⟨5, _⟩ => ⟨S262144x7, .f32⟩
  | .hbm, ⟨6, _⟩ => ⟨S1x7, .f32⟩
  | .hbm, ⟨7, _⟩ => ⟨S262144x7, .f32⟩
  | .hbm, ⟨8, _⟩ => ⟨S262144x7, .f32⟩
  | .hbm, ⟨9, _⟩ => ⟨S262144x7, .f32⟩
  | .hbm, ⟨10, _⟩ => ⟨S262144x7, .f32⟩
  | .hbm, ⟨11, _⟩ => ⟨S262144x14, .f32⟩
  | .hbm, ⟨12, _⟩ => ⟨S262144x1, .f32⟩
  | .hbm, ⟨13, _⟩ => ⟨S1x1, .f32⟩
  | .hbm, ⟨14, _⟩ => ⟨S262144x1, .f32⟩
  | .hbm, ⟨15, _⟩ => ⟨S262144x1, .f32⟩
  | .hbm, ⟨16, _⟩ => ⟨S262144x256, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S7_S1x7_1 : S7.BroadcastsInDim S1x7 (![1] : Fin 1 → Fin S1x7.rank)
  bcast_S1x7_S262144x7_0_1 : S1x7.BroadcastsInDim S262144x7 (![0, 1] : Fin 2 → Fin S262144x7.rank)
  concatenates_S262144x7_S262144x7_S262144x14_d1 : Shape.Concatenates [S262144x7, S262144x7] S262144x14 1
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  bcast_S262144x1_S262144x256_0_1 : S262144x1.BroadcastsInDim S262144x256 (![0, 1] : Fin 2 → Fin S262144x256.rank)
  dot_S262144x128_S128x7_S262144x7_1_0_0_1_n_n_wf : DotDims.WF S262144x128 S128x7 S262144x7 [1] [0] [0] [1] [] []
  dot_S262144x14_S14x1_S262144x1_1_0_0_1_n_n_wf : DotDims.WF S262144x14 S14x1 S262144x1 [1] [0] [0] [1] [] []

variable [Facts₀]

def dot_S262144x128_S128x7_S262144x7_1_0_0_1_n_n : DotDims S262144x128 S128x7 S262144x7 where
  lhsContracting := [1]
  rhsContracting := [0]
  lhsNonContracting := [0]
  rhsNonContracting := [1]
  lhsBatch := []
  rhsBatch := []
  wf := dot_S262144x128_S128x7_S262144x7_1_0_0_1_n_n_wf
def dot_S262144x14_S14x1_S262144x1_1_0_0_1_n_n : DotDims S262144x14 S14x1 S262144x1 where
  lhsContracting := [1]
  rhsContracting := [0]
  lhsNonContracting := [0]
  rhsNonContracting := [1]
  lhsBatch := []
  rhsBatch := []
  wf := dot_S262144x14_S14x1_S262144x1_1_0_0_1_n_n_wf

class Facts : Prop extends Facts₀ where

variable [Facts]
-- ==== Proof.FourierRow.lean ====
/-
  The function both programs compute, stated once over the extended reals.

  A row `xr` of the input (128 entries) is sent to seven PHASES, `phase k = (∑ d, xr d · w d k) + b k`; the row's value is
  `(∑ k, sin (phase k) · ws k) + (∑ k, cos (phase k) · wc k) + bm`, where `ws` and `wc` are the upper and the lower seven
  entries of the one column of the second weight matrix. Every one of the 256 output columns of the row holds that value.

  The one law used between the two programs is that a sum over fourteen terms is the sum of its first seven plus the sum
  of its last seven (`sum_fourteen`): additions of extended reals commute and associate with the infinities present, so no
  finiteness of the entries is needed.
-/
import Idealize.ShloMosaic.PureOps.Ideal
import Idealize.ShloMosaic.Lib.ValueIdx

noncomputable section

namespace Cert.FourierRow

open Idealize.ShloMosaic Idealize.ShloMosaic.ValueIdx

/-- Feature `k` of the upper half of the fourteen: position `k`. -/
abbrev upper (k : Fin 7) : Fin 14 := ⟨k.val, by omega⟩
/-- Feature `k` of the lower half of the fourteen: position `7 + k`. -/
abbrev lower (k : Fin 7) : Fin 14 := ⟨7 + k.val, by omega⟩

/-- The phase of feature `k` on a row: the row's inner product with column `k` of the first weight matrix, plus the bias. -/
def phase (xr : Fin 128 → EReal) (w : Fin 128 → Fin 7 → EReal) (b : Fin 7 → EReal) (k : Fin 7) : EReal :=
  (∑ d : Fin 128, xr d * w d k) + b k

/-- The value of a row: the sines of its phases against `ws`, plus the cosines against `wc`, plus the last bias. -/
def rowValue (xr : Fin 128 → EReal) (w : Fin 128 → Fin 7 → EReal) (b ws wc : Fin 7 → EReal) (bm : EReal) : EReal :=
  ((∑ k : Fin 7, Ideal.sin (phase xr w b k) * ws k) + (∑ k : Fin 7, Ideal.cos (phase xr w b k) * wc k)) + bm

/-- A sum over fourteen terms is the sum over the upper seven plus the sum over the lower seven. -/
theorem sum_fourteen (f : Fin 14 → EReal) : (∑ j : Fin 14, f j) = (∑ k : Fin 7, f (upper k)) + (∑ k : Fin 7, f (lower k)) :=
  (Fin.sum_univ_add (a := 7) (b := 7) f).trans
    (congrArg₂ (· + ·) (Finset.sum_congr rfl fun k _ => congrArg f (Fin.ext rfl))
      (Finset.sum_congr rfl fun k _ => congrArg f (Fin.ext rfl)))

/-- The whole result array as one function of the five argument arrays: at `(n, j)` the value of row `n`, whatever `j`. -/
def G (x : (⟨2, ![262144, 128]⟩ : Shape).Idx → EReal) (w : (⟨2, ![128, 7]⟩ : Shape).Idx → EReal)
    (b : (⟨1, ![7]⟩ : Shape).Idx → EReal) (wm : (⟨2, ![14, 1]⟩ : Shape).Idx → EReal) (bm : (⟨1, ![1]⟩ : Shape).Idx → EReal) :
    (⟨2, ![262144, 256]⟩ : Shape).Idx → EReal :=
  fun i => rowValue (fun d => x (ix2 (i 0) d)) (fun d k => w (ix2 d k)) (fun k => b (ix1 k))
    (fun k => wm (ix2 (upper k) (0 : Fin 1))) (fun k => wm (ix2 (lower k) (0 : Fin 1))) (bm (ix1 (0 : Fin 1)))

end Cert.FourierRow

end
-- ==== Proof.RefValue.lean ====
/-
  The reference's result array is `FourierRow.G` of its five arguments.

  Read one operation at a time: the last broadcast copies column 0 of the [262144, 1] array to all 256 columns; that array
  is the product of the concatenated features [sin h | cos h] with the [14, 1] weights, plus the last bias; a feature at
  position `j < 7` is `sin` of phase `j` and one at position `7 + k` is `cos` of phase `k`; the phases are the first product
  plus the bias row. The sum over the fourteen positions splits into its two halves (`FourierRow.sum_fourteen`).
-/
import proofs.«154484_j65455301591497_2_alg».proof.Proof.Gen.ReferenceIdeal.Read
import proofs.«154484_j65455301591497_2_alg».proof.Proof.FourierRow
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.FourierRow

variable (x0 : (⟨S262144x128, .f32⟩ : BufTy).Contents (Elt Ideal)) (x1 : (⟨S128x7, .f32⟩ : BufTy).Contents (Elt Ideal))
  (x2 : (⟨S7, .f32⟩ : BufTy).Contents (Elt Ideal)) (x3 : (⟨S14x1, .f32⟩ : BufTy).Contents (Elt Ideal))
  (x4 : (⟨S1, .f32⟩ : BufTy).Contents (Elt Ideal))

/-- The pre-activation at `(n, k)` is phase `k` of row `n`. -/
theorem preact_apply (n : Fin 262144) (k : Fin 7) :
    val_main_v3 (F := Ideal) x0 x1 x2 (ix2 n k)
      = phase (fun d => x0 (ix2 n d)) (fun d k => x1 (ix2 d k)) (fun k => x2 (ix1 k)) k := by
  have el : ∀ d : Fin 128, lidx_main_v0 (ix2 n k) d = ix2 n d := fun d => funext fun a => Fin.ext (by
    match a with | ⟨0, _⟩ => rfl | ⟨1, _⟩ => rfl)
  have er : ∀ d : Fin 128, ridx_main_v0 (ix2 n k) d = ix2 d k := fun d => funext fun a => Fin.ext (by
    match a with | ⟨0, _⟩ => rfl | ⟨1, _⟩ => rfl)
  have eb : idx_main_v1 (idx_main_v2 (ix2 n k)) = ix1 k := funext fun a => Fin.ext (by
    match a with | ⟨0, _⟩ => rfl)
  rw [val_main_v3_apply, val_main_v0_apply, val_main_v2_apply, val_main_v1_apply]
  simp only [el, er, eb]
  rfl

/-- The feature at an upper position is the sine of the phase. -/
theorem feature_upper (n : Fin 262144) (k : Fin 7) :
    val_main_v6 (F := Ideal) x0 x1 x2 (ix2 n (upper k))
      = Ideal.sin (phase (fun d => x0 (ix2 n d)) (fun d k => x1 (ix2 d k)) (fun k => x2 (ix1 k)) k) := by
  unfold val_main_v6
  refine (concatenate_pair_apply_left (t := S262144x14) (s₁ := S262144x7) (s₂ := S262144x7) (1 : Fin 2) _ _
    concatenates_S262144x7_S262144x7_S262144x14_d1 (ix2 n (upper k)) rfl (ix2 n k) (fun b => by
      match b with | ⟨0, _⟩ => rfl | ⟨1, _⟩ => rfl)).trans ?_
  rw [val_main_v4_apply, preact_apply, Ideal.hostUnary_sin_def]

/-- The feature at a lower position is the cosine of the phase. -/
theorem feature_lower (n : Fin 262144) (k : Fin 7) :
    val_main_v6 (F := Ideal) x0 x1 x2 (ix2 n (lower k))
      = Ideal.cos (phase (fun d => x0 (ix2 n d)) (fun d k => x1 (ix2 d k)) (fun k => x2 (ix1 k)) k) := by
  unfold val_main_v6
  refine (concatenate_pair_apply_right (t := S262144x14) (s₁ := S262144x7) (s₂ := S262144x7) (1 : Fin 2) _ _
    concatenates_S262144x7_S262144x7_S262144x14_d1 (ix2 n (lower k)) rfl rfl (ix2 n k) (fun b hb => by
      match b with
      | ⟨0, _⟩ => rfl
      | ⟨1, _⟩ => exact absurd rfl hb) (by show k.val + 7 = 7 + k.val; omega)).trans ?_
  rw [val_main_v5_apply, preact_apply, Ideal.hostUnary_cos_def]

/-- The reference's result is `G` of its arguments. -/
theorem result_eq : val_main_v11 (F := Ideal) x0 x1 x2 x3 x4 = G x0 x1 x2 x3 x4 := by
  funext i
  obtain ⟨n, q, rfl⟩ : ∃ (n : Fin 262144) (q : Fin 256), i = ix2 n q := ⟨i 0, i 1, eq_ix2 i⟩
  have el : ∀ j : Fin 14, lidx_main_v7 (idx_main_v11 (ix2 n q)) j = ix2 n j := fun j => funext fun a => Fin.ext (by
    match a with | ⟨0, _⟩ => rfl | ⟨1, _⟩ => rfl)
  have er : ∀ j : Fin 14, ridx_main_v7 (idx_main_v11 (ix2 n q)) j = ix2 j (0 : Fin 1) := fun j => funext fun a => Fin.ext (by
    match a with | ⟨0, _⟩ => rfl | ⟨1, _⟩ => rfl)
  have eb : idx_main_v8 (idx_main_v9 (idx_main_v11 (ix2 n q))) = ix1 (0 : Fin 1) := funext fun a => Fin.ext (by
    match a with | ⟨0, _⟩ => rfl)
  rw [val_main_v11_apply, val_main_v10_apply, val_main_v7_apply, val_main_v9_apply, val_main_v8_apply, sum_fourteen]
  simp only [el, er, eb, feature_upper, feature_lower]
  rfl

end Cert.ReferenceIdeal.RefValue

end
-- ==== Proof.LibColumn.lean ====
/-
  Column forms of two layout operations, read at an index.

  A vector of length `a` viewed as an `[a, 1]` column by a shape cast reads, at `(p, 0)`, the vector at `p`, and the column
  viewed back as a vector reads, at `p`, the column at `(p, 0)`; an `[a, 1]` column broadcast along its unit axis to `[a, b]`
  reads, at `(p, q)`, the column at `(p, 0)`. Together they are what a sum along the last axis that keeps the axis (a row
  sum stored as a column, then spread over the row) reads at an index.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column cast to `[a]` reads, at `p`, the column's entry of row `p`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.BodyValue.lean ====
/-
  What the kernel's body stores, read at an index of the output block.

  The body's one store writes a [16384, 256] value computed from the point's input blocks: the row block `v0` of the input,
  the whole first weight matrix `v1`, the bias row `v3`, the two halves `v9`, `v15` of the second weight column laid out as
  rows, and the last bias `v22`. At `(p, q)` it is `FourierRow.rowValue` of row `p` of the block: the matrix product into a
  zero accumulator is the plain sum over the contracted axis, each sum along the last axis that keeps the axis is a sum
  over the seven features, and the final broadcast copies the column to all 256 positions.
-/
import proofs.«154484_j65455301591497_2_alg».proof.Proof.Gen.KernelIdeal.Skeleton
import proofs.«154484_j65455301591497_2_alg».proof.Proof.FourierRow
import proofs.«154484_j65455301591497_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BodyValue

open Cert.KernelIdeal Cert.KernelIdeal.Gen Idealize.ShloMosaic Idealize.ShloMosaic.ValueIdx
open Cert.FourierRow Cert.Lib.Column

/-- A sum along the last axis of a [16384, 7] value, at row `p`: the sum of the row's seven entries. -/
theorem row_sum (src : FVec Ideal S16384x7 .f32) (h : S16384x7.Reduces [1] S16384) (hφ : FKind.Formats .f32)
    (hacc : (0x00000000#32 : BitVec 32) = FKind.add.neutral .f32 hφ) (p : Fin 16384) :
    multiReduction .add [1] S16384 src 0x00000000#32 h hφ hacc (ix1 p) = ∑ k : Fin 7, src (ix2 p k) :=
  (Ideal.multiReduction_add_single src 0x00000000#32 h hφ hacc (ix1 p)).trans
    (Finset.sum_congr rfl fun k _ => congrArg src (funext fun a => Fin.ext (by
      match a with | ⟨0, _⟩ => rfl | ⟨1, _⟩ => rfl)))

/-- The operand indices of the product at output `(p, k)` and contraction coordinate `q`: coordinate by coordinate. -/
theorem lhs_coord0 (i : S16384x7.Idx) (q : dot_S16384x128_S128x7_S16384x7_1_0_0_1_n_n.contr.Idx) :
    (dot_S16384x128_S128x7_S16384x7_1_0_0_1_n_n.lhsIdx i q 0).val = (i 0).val := by
  unfold DotDims.lhsIdx
  rw [dif_neg (show ¬(0 : Fin S16384x128.rank) ∈ dot_S16384x128_S128x7_S16384x7_1_0_0_1_n_n.lhsBatch by decide),
    dif_pos (show (0 : Fin S16384x128.rank) ∈ dot_S16384x128_S128x7_S16384x7_1_0_0_1_n_n.lhsNonContracting by decide)]
  rfl
theorem rhs_coord1 (i : S16384x7.Idx) (q : dot_S16384x128_S128x7_S16384x7_1_0_0_1_n_n.contr.Idx) :
    (dot_S16384x128_S128x7_S16384x7_1_0_0_1_n_n.rhsIdx i q 1).val = (i 1).val := by
  unfold DotDims.rhsIdx
  rw [dif_neg (show ¬(1 : Fin S128x7.rank) ∈ dot_S16384x128_S128x7_S16384x7_1_0_0_1_n_n.rhsBatch by decide),
    dif_pos (show (1 : Fin S128x7.rank) ∈ dot_S16384x128_S128x7_S16384x7_1_0_0_1_n_n.rhsNonContracting by decide)]
  rfl

/-- The block's product with the first weight matrix, into a zero accumulator, at `(p, k)`: row `p` against column `k`. -/
theorem matmul_row (v0 : FVec Ideal S16384x128 .f32) (v1 : FVec Ideal S128x7 .f32) (p : Fin 16384) (k : Fin 7) :
    matmul dot_S16384x128_S128x7_S16384x7_1_0_0_1_n_n none v0 v1 (constant (F := Ideal) S16384x7 .f32 0x00000000#32) (ix2 p k)
      = ∑ d : Fin 128, v0 (ix2 p d) * v1 (ix2 d k) := by
  simp only [matmul]
  rw [Ideal.matmul_constant_zero_apply,
    ← Equiv.sum_comp (contrEquiv1 dot_S16384x128_S128x7_S16384x7_1_0_0_1_n_n 128 rfl rfl).symm]
  refine Finset.sum_congr rfl fun d _ => ?_
  have hk := contrEquiv1_symm_val dot_S16384x128_S128x7_S16384x7_1_0_0_1_n_n 128 rfl rfl d
  have el : dot_S16384x128_S128x7_S16384x7_1_0_0_1_n_n.lhsIdx (ix2 p k)
      ((contrEquiv1 dot_S16384x128_S128x7_S16384x7_1_0_0_1_n_n 128 rfl rfl).symm d) = ix2 p d := funext fun a => Fin.ext (by
    match a with
    | ⟨0, _⟩ => exact lhs_coord0 _ _
    | ⟨1, _⟩ => exact (dot_S16384x128_S128x7_S16384x7_1_0_0_1_n_n.lhsIdx_val_of_single rfl _ _).trans hk)
  have er : dot_S16384x128_S128x7_S16384x7_1_0_0_1_n_n.rhsIdx (ix2 p k)
      ((contrEquiv1 dot_S16384x128_S128x7_S16384x7_1_0_0_1_n_n 128 rfl rfl).symm d) = ix2 d k := funext fun a => Fin.ext (by
    match a with
    | ⟨0, _⟩ => exact (dot_S16384x128_S128x7_S16384x7_1_0_0_1_n_n.rhsIdx_val_of_single rfl _ _).trans hk
    | ⟨1, _⟩ => exact rhs_coord1 _ _)
  rw [el, er]

/-- The pre-activation of the block at `(p, k)`: phase `k` of row `p`. -/
theorem preact_apply (v0 : FVec Ideal S16384x128 .f32) (v1 : FVec Ideal S128x7 .f32) (v3 : FVec Ideal S1x7 .f32)
    (h : S1x7.Broadcasts S16384x7) (p : Fin 16384) (k : Fin 7) :
    addf (matmul dot_S16384x128_S128x7_S16384x7_1_0_0_1_n_n none v0 v1 (constant (F := Ideal) S16384x7 .f32 0x00000000#32))
        (broadcastTo S16384x7 v3 h) (ix2 p k)
      = phase (fun d => v0 (ix2 p d)) (fun d k => v1 (ix2 d k)) (fun k => v3 (ix2 (0 : Fin 1) k)) k := by
  rw [addf_apply, matmul_row, broadcastTo_1b_ab_apply]
  rfl

/-- A sine or a cosine of a vector, at an index: of the entry there. -/
theorem sin_apply {s : Shape} (x : FVec Ideal s .f32) (i : s.Idx) : sin x i = Ideal.sin (x i) := rfl
theorem cos_apply {s : Shape} (x : FVec Ideal s .f32) (i : s.Idx) : cos x i = Ideal.cos (x i) := rfl

/-- The stored value at `(p, q)` is the value of row `p` of the block. -/
theorem payload_apply (v0 : Vec Ideal S16384x128 .f32) (v1 : Vec Ideal S128x7 .f32) (v3 v9 v15 : Vec Ideal S1x7 .f32)
    (v22 : Vec Ideal S1x1 .f32) (p : Fin 16384) (q : Fin 256) :
    k0_pay1 (F := Ideal) v0 v1 v3 v9 v15 v22 (ix2 p q)
      = rowValue (fun d => v0 (ix2 p d)) (fun d k => v1 (ix2 d k)) (fun k => v3 (ix2 (0 : Fin 1) k))
          (fun k => v9 (ix2 (0 : Fin 1) k)) (fun k => v15 (ix2 (0 : Fin 1) k)) (v22 (ix2 (0 : Fin 1) (0 : Fin 1))) := by
  unfold k0_pay1
  dsimp only
  simp only [shapeCast_self]
  rw [broadcastTo_a1_ab_apply, addf_apply, addf_apply, broadcastTo_1b_ab_apply, shapeCast_a_a1_apply, shapeCast_a_a1_apply]
  unfold rowValue
  refine congrArg₂ (· + ·) (congrArg₂ (· + ·) ?_ ?_) rfl
  · refine (row_sum _ _ _ _ p).trans (Finset.sum_congr rfl fun k _ => ?_)
    rw [mulf_apply, broadcastTo_1b_ab_apply, sin_apply, preact_apply]
  · refine (row_sum _ _ _ _ p).trans (Finset.sum_congr rfl fun k _ => ?_)
    rw [mulf_apply, broadcastTo_1b_ab_apply, cos_apply, preact_apply]

end Cert.KernelIdeal.BodyValue

end
-- ==== Proof.HostPrefix.lean ====
/-
  The four small operands the host prepares before the call, read at an index.

  Before the kernel is launched the bias vector [7] is viewed as a row [1, 7], the last bias [1] as [1, 1], and each half
  of the [14, 1] weight column — rows 0..6 and rows 7..13 — is cut out, flattened to [7] and viewed as a row [1, 7]. So the
  row operand for the sines holds at `(0, k)` the weight at `(k, 0)`, and the one for the cosines the weight at `(7 + k, 0)`.
-/
import proofs.«154484_j65455301591497_2_alg».proof.Proof.Gen.KernelIdeal.Frame
import proofs.«154484_j65455301591497_2_alg».proof.Proof.FourierRow
import proofs.«154484_j65455301591497_2_alg».proof.Proof.LibColumn
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostPrefix

open Cert.KernelIdeal Cert.KernelIdeal.Gen Idealize.ShloMosaic Idealize.ShloMosaic.TcCoe Idealize.ShloMosaic.ValueIdx
open Idealize.SL.Sem Idealize.ShloMosaic.StableHlo
open Cert.FourierRow Cert.Lib.Column

variable (m : (ℓ : Loc nD τ sig) → Buf (Elt Ideal) ℓ)

/-- The bias row at `(0, k)` is the bias vector at `k`. -/
theorem bias_row_apply (c : Dev nD) (u : Fin 1) (k : Fin 7) :
    (V m c main_v0 : S1x7.Idx → EReal) (ix2 u k) = (m ((c : Thread nD τ).loc main_arg2) : S7.Idx → EReal) (ix1 k) := by
  have e : (V m c main_v0 : S1x7.Idx → EReal)
      = shapeCast S1x7 (m ((c : Thread nD τ).loc main_arg2) : S7.Idx → EReal) shapeCasts_S7_S1x7 := by
    dsimp only [Gen.V, Gen.hostOps0]; after_results; rfl
  rw [e]
  exact shapeCast_a_1a_apply _ _ u k

/-- The [1, 1] bias at its one index is the last bias. -/
theorem last_bias_apply (c : Dev nD) (u u' : Fin 1) :
    (V m c main_v1 : S1x1.Idx → EReal) (ix2 u u') = (m ((c : Thread nD τ).loc main_arg4) : S1.Idx → EReal) (ix1 (0 : Fin 1)) := by
  have e : (V m c main_v1 : S1x1.Idx → EReal)
      = shapeCast S1x1 (m ((c : Thread nD τ).loc main_arg4) : S1.Idx → EReal) shapeCasts_S1_S1x1 := by
    dsimp only [Gen.V, Gen.hostOps0]; after_results; rfl
  rw [e]
  refine (shapeCast_a_1a_apply _ _ u u').trans (congrArg _ ?_)
  exact congrArg ix1 (Fin.ext (by omega))

/-- The row operand for the sines at `(0, k)` is the weight column's entry `k`. -/
theorem sin_weights_apply (c : Dev nD) (u : Fin 1) (k : Fin 7) :
    (V m c main_v4 : S1x7.Idx → EReal) (ix2 u k)
      = (m ((c : Thread nD τ).loc main_arg3) : S14x1.Idx → EReal) (ix2 (upper k) (0 : Fin 1)) := by
  have e : (V m c main_v4 : S1x7.Idx → EReal)
      = shapeCast S1x7 (shapeCast S7 (extractStridedSlice S7x1 ![0, 0]
          (m ((c : Thread nD τ).loc main_arg3) : S14x1.Idx → EReal) slices_S14x1_S7x1_0_0) shapeCasts_S7x1_S7) shapeCasts_S7_S1x7 := by
    dsimp only [Gen.V, Gen.hostOps0]; after_results; rfl
  rw [e]
  refine (shapeCast_a_1a_apply _ _ u k).trans ((shapeCast_a1_a_apply _ _ k).trans ?_)
  refine extractStridedSlice_apply _ _ _ _ _ fun a => ?_
  match a with
  | ⟨0, _⟩ => show k.val = 0 + k.val; omega
  | ⟨1, _⟩ => rfl

/-- The row operand for the cosines at `(0, k)` is the weight column's entry `7 + k`. -/
theorem cos_weights_apply (c : Dev nD) (u : Fin 1) (k : Fin 7) :
    (V m c main_v7 : S1x7.Idx → EReal) (ix2 u k)
      = (m ((c : Thread nD τ).loc main_arg3) : S14x1.Idx → EReal) (ix2 (lower k) (0 : Fin 1)) := by
  have e : (V m c main_v7 : S1x7.Idx → EReal)
      = shapeCast S1x7 (shapeCast S7 (extractStridedSlice S7x1 ![7, 0]
          (m ((c : Thread nD τ).loc main_arg3) : S14x1.Idx → EReal) slices_S14x1_S7x1_7_0) shapeCasts_S7x1_S7) shapeCasts_S7_S1x7 := by
    dsimp only [Gen.V, Gen.hostOps0]; after_results; rfl
  rw [e]
  refine (shapeCast_a_1a_apply _ _ u k).trans ((shapeCast_a1_a_apply _ _ k).trans ?_)
  refine extractStridedSlice_apply _ _ _ _ _ fun a => ?_
  match a with
  | ⟨0, _⟩ => rfl
  | ⟨1, _⟩ => rfl

end Cert.KernelIdeal.HostPrefix

end
-- ==== Proof.KernelValue.lean ====
/-
  The kernel's result array is `FourierRow.G` of its five arguments.

  The grid has sixteen points; point `t` reads rows `16384·t … 16384·t + 16383` of the input (its block of window 0), the whole
  of each small operand, and writes rows `16384·t …` of the result, all 256 columns. What it writes at `(p, q)` of its block
  is the value of row `p` of the input block (`BodyValue.payload_apply`), that is, of row `16384·t + p` of the input: block
  `t` of `G`. The sixteen blocks cover the result array (row `r` lies in block `r / 16384`), so the array ends at `G`.
-/
import proofs.«154484_j65455301591497_2_alg».proof.Proof.Gen.KernelIdeal.Value
import proofs.«154484_j65455301591497_2_alg».proof.Proof.FourierRow
import proofs.«154484_j65455301591497_2_alg».proof.Proof.BodyValue
import proofs.«154484_j65455301591497_2_alg».proof.Proof.HostPrefix
import Idealize.ShloMosaic.Lib.Pipeline.Value
import Idealize.ShloMosaic.Lib.ValueIdx

noncomputable section

namespace Cert.KernelIdeal.KernelValue

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)
open Cert.FourierRow

variable (m : (ℓ : Loc nD τ sig) → Buf (Elt Ideal) ℓ) (ρ : Dev nD → PrngReg)

theorem offsets_zero : (![0, 0] : Fin 2 → Nat) = fun _ => 0 := funext fun a => by fin_cases a <;> rfl

/-- The block indices over the grid: the input's row blocks and the result's move with the point, the small operands stay. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Every row block of the result is some point's. -/
theorem block_onto : ∀ b : Fin 16, ∃ t : Fin cfg0.N, win0_6.index t = ![b.val, 0] :=
  (by decide +kernel : ∀ b : Fin 16, ∃ t : Fin grid0.N, win0_6.index t = ![b.val, 0])

/-! ## The input blocks at a point, read at an index -/

/-- Row `p` of the input's block at point `t` is row `16384·t + p` of the input. -/
theorem input_block_apply (c : Dev nD) (t : Fin cfg0.N) (p : Fin 16384) (d : Fin 128) (n : Fin 262144)
    (hn : n.val = t.val * 16384 + p.val) :
    (iblk m c 0 t : Vec Ideal S16384x128 .f32) (ix2 p d)
      = (m ((c : Thread nD τ).loc main_arg0) : S262144x128.Idx → EReal) (ix2 n d) := by
  obtain ⟨e0, e1, -⟩ := block_indices t
  unfold iblk
  rw [View.read_apply]
  show V m c main_arg0 _ = _
  rw [V_main_arg0]
  refine congrArg (m ((c : Thread nD τ).loc main_arg0) : S262144x128.Idx → EReal) (funext fun a => Fin.ext ?_)
  match a with
  | ⟨0, _⟩ => show win0_0.index t (0 : Fin 2) * 16384 + 1 * p.val = n.val; rw [e0, hn]; omega
  | ⟨1, _⟩ => show win0_0.index t (1 : Fin 2) * 128 + 1 * d.val = d.val; rw [e1]; omega

/-- The first weight matrix's block is the whole matrix. -/
theorem weight_block_apply (c : Dev nD) (t : Fin cfg0.N) (d : Fin 128) (k : Fin 7) :
    (iblk m c 1 t : Vec Ideal S128x7 .f32) (ix2 d k)
      = (m ((c : Thread nD τ).loc main_arg1) : S128x7.Idx → EReal) (ix2 d k) := by
  obtain ⟨-, -, e0, e1, -⟩ := block_indices t
  unfold iblk
  rw [View.read_apply]
  show V m c main_arg1 _ = _
  rw [V_main_arg1]
  refine congrArg (m ((c : Thread nD τ).loc main_arg1) : S128x7.Idx → EReal) (funext fun a => Fin.ext ?_)
  match a with
  | ⟨0, _⟩ => show win0_1.index t (0 : Fin 2) * 128 + 1 * d.val = d.val; rw [e0]; omega
  | ⟨1, _⟩ => show win0_1.index t (1 : Fin 2) * 7 + 1 * k.val = k.val; rw [e1]; omega

/-- The bias row's block at `(0, k)` is the bias vector at `k`. -/
theorem bias_block_apply (c : Dev nD) (t : Fin cfg0.N) (k : Fin 7) :
    (iblk m c 2 t : Vec Ideal S1x7 .f32) (ix2 (0 : Fin 1) k)
      = (m ((c : Thread nD τ).loc main_arg2) : S7.Idx → EReal) (ix1 k) := by
  obtain ⟨-, -, -, -, e0, e1, -⟩ := block_indices t
  unfold iblk
  rw [View.read_apply]
  show V m c main_v0 _ = _
  refine Eq.trans (congrArg (V m c main_v0 : S1x7.Idx → EReal) (funext fun a => Fin.ext ?_))
    (HostPrefix.bias_row_apply m c (0 : Fin 1) k)
  match a with
  | ⟨0, _⟩ => show win0_2.index t (0 : Fin 2) * 1 + 1 * 0 = 0; rw [e0]
  | ⟨1, _⟩ => show win0_2.index t (1 : Fin 2) * 7 + 1 * k.val = k.val; rw [e1]; omega

/-- The sine weights' block at `(0, k)` is the weight column's entry `k`. -/
theorem sin_weights_block_apply (c : Dev nD) (t : Fin cfg0.N) (k : Fin 7) :
    (iblk m c 3 t : Vec Ideal S1x7 .f32) (ix2 (0 : Fin 1) k)
      = (m ((c : Thread nD τ).loc main_arg3) : S14x1.Idx → EReal) (ix2 (upper k) (0 : Fin 1)) := by
  obtain ⟨-, -, -, -, -, -, e0, e1, -⟩ := block_indices t
  unfold iblk
  rw [View.read_apply]
  show V m c main_v4 _ = _
  refine Eq.trans (congrArg (V m c main_v4 : S1x7.Idx → EReal) (funext fun a => Fin.ext ?_))
    (HostPrefix.sin_weights_apply m c (0 : Fin 1) k)
  match a with
  | ⟨0, _⟩ => show win0_3.index t (0 : Fin 2) * 1 + 1 * 0 = 0; rw [e0]
  | ⟨1, _⟩ => show win0_3.index t (1 : Fin 2) * 7 + 1 * k.val = k.val; rw [e1]; omega

/-- The cosine weights' block at `(0, k)` is the weight column's entry `7 + k`. -/
theorem cos_weights_block_apply (c : Dev nD) (t : Fin cfg0.N) (k : Fin 7) :
    (iblk m c 4 t : Vec Ideal S1x7 .f32) (ix2 (0 : Fin 1) k)
      = (m ((c : Thread nD τ).loc main_arg3) : S14x1.Idx → EReal) (ix2 (lower k) (0 : Fin 1)) := by
  obtain ⟨-, -, -, -, -, -, -, -, e0, e1, -⟩ := block_indices t
  unfold iblk
  rw [View.read_apply]
  show V m c main_v7 _ = _
  refine Eq.trans (congrArg (V m c main_v7 : S1x7.Idx → EReal) (funext fun a => Fin.ext ?_))
    (HostPrefix.cos_weights_apply m c (0 : Fin 1) k)
  match a with
  | ⟨0, _⟩ => show win0_4.index t (0 : Fin 2) * 1 + 1 * 0 = 0; rw [e0]
  | ⟨1, _⟩ => show win0_4.index t (1 : Fin 2) * 7 + 1 * k.val = k.val; rw [e1]; omega

/-- The last bias's block at its one index is the last bias. -/
theorem last_bias_block_apply (c : Dev nD) (t : Fin cfg0.N) :
    (iblk m c 5 t : Vec Ideal S1x1 .f32) (ix2 (0 : Fin 1) (0 : Fin 1))
      = (m ((c : Thread nD τ).loc main_arg4) : S1.Idx → EReal) (ix1 (0 : Fin 1)) := by
  obtain ⟨-, -, -, -, -, -, -, -, -, -, e0, e1, -⟩ := block_indices t
  unfold iblk
  rw [View.read_apply]
  show V m c main_v1 _ = _
  refine Eq.trans (congrArg (V m c main_v1 : S1x1.Idx → EReal) (funext fun a => Fin.ext ?_))
    (HostPrefix.last_bias_apply m c (0 : Fin 1) (0 : Fin 1))
  match a with
  | ⟨0, _⟩ => show win0_5.index t (0 : Fin 2) * 1 + 1 * 0 = 0; rw [e0]
  | ⟨1, _⟩ => show win0_5.index t (1 : Fin 2) * 1 + 1 * 0 = 0; rw [e1]

/-! ## What a point stores is its block of `G` -/

/-- Over any loaded values whose entries are the arguments' at the matching places, the stored value at `(p, q)` is `G`
    at any index `i` of row `i 0`. -/
theorem stored_eq_G (x : S262144x128.Idx → EReal) (w : S128x7.Idx → EReal) (b : S7.Idx → EReal) (wm : S14x1.Idx → EReal)
    (bm : S1.Idx → EReal) (v0 : Vec Ideal S16384x128 .f32) (v1 : Vec Ideal S128x7 .f32) (v3 v9 v15 : Vec Ideal S1x7 .f32)
    (v22 : Vec Ideal S1x1 .f32) (i : S262144x256.Idx) (p : Fin 16384) (q : Fin 256)
    (h0 : ∀ d : Fin 128, v0 (ix2 p d) = x (ix2 (i 0) d))
    (h1 : ∀ (d : Fin 128) (k : Fin 7), v1 (ix2 d k) = w (ix2 d k))
    (h3 : ∀ k : Fin 7, v3 (ix2 (0 : Fin 1) k) = b (ix1 k))
    (h9 : ∀ k : Fin 7, v9 (ix2 (0 : Fin 1) k) = wm (ix2 (upper k) (0 : Fin 1)))
    (h15 : ∀ k : Fin 7, v15 (ix2 (0 : Fin 1) k) = wm (ix2 (lower k) (0 : Fin 1)))
    (h22 : v22 (ix2 (0 : Fin 1) (0 : Fin 1)) = bm (ix1 (0 : Fin 1))) :
    k0_pay1 (F := Ideal) v0 v1 v3 v9 v15 v22 (ix2 p q) = G x w b wm bm i := by
  rw [BodyValue.payload_apply]
  unfold G
  simp only [h0, h1, h3, h9, h15, h22]

/-- The same at any index `j` of the block. -/
theorem stored_eq_G' (x : S262144x128.Idx → EReal) (w : S128x7.Idx → EReal) (b : S7.Idx → EReal) (wm : S14x1.Idx → EReal)
    (bm : S1.Idx → EReal) (v0 : Vec Ideal S16384x128 .f32) (v1 : Vec Ideal S128x7 .f32) (v3 v9 v15 : Vec Ideal S1x7 .f32)
    (v22 : Vec Ideal S1x1 .f32) (i : S262144x256.Idx) (j : S16384x256.Idx)
    (h0 : ∀ d : Fin 128, v0 (ix2 (j 0) d) = x (ix2 (i 0) d))
    (h1 : ∀ (d : Fin 128) (k : Fin 7), v1 (ix2 d k) = w (ix2 d k))
    (h3 : ∀ k : Fin 7, v3 (ix2 (0 : Fin 1) k) = b (ix1 k))
    (h9 : ∀ k : Fin 7, v9 (ix2 (0 : Fin 1) k) = wm (ix2 (upper k) (0 : Fin 1)))
    (h15 : ∀ k : Fin 7, v15 (ix2 (0 : Fin 1) k) = wm (ix2 (lower k) (0 : Fin 1)))
    (h22 : v22 (ix2 (0 : Fin 1) (0 : Fin 1)) = bm (ix1 (0 : Fin 1))) :
    k0_pay1 (F := Ideal) v0 v1 v3 v9 v15 v22 j = G x w b wm bm i := by
  obtain ⟨p, q, rfl⟩ : ∃ (p : Fin 16384) (q : Fin 256), j = ix2 p q := ⟨j 0, j 1, eq_ix2 j⟩
  exact stored_eq_G x w b wm bm v0 v1 v3 v9 v15 v22 i p q h0 h1 h3 h9 h15 h22

/-- WHAT POINT `t` WRITES BACK is block `t` of `G` of the arguments. -/
theorem flushed_eq (c : Dev nD) (t : Fin cfg0.N) :
    (dats m 0 c).flushed 6 t = ((cfg0.win 6).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4))) := by
  rw [flushed6]
  unfold out0_6
  rw [View.canon_unit_zero offsets_zero]
  simp only [View.ld_unit_zero (S := S16384x128) offsets_zero, View.ld_unit_zero (S := S128x7) offsets_zero,
    View.ld_unit_zero (S := S1x7) offsets_zero, View.ld_unit_zero (S := S1x1) offsets_zero]
  obtain ⟨-, -, -, -, -, -, -, -, -, -, -, -, e0, e1⟩ := block_indices t
  funext j
  show k0_pay1 (F := Ideal) (iblk m c 0 t) (iblk m c 1 t) (iblk m c 2 t) (iblk m c 3 t) (iblk m c 4 t) (iblk m c 5 t) j
    = G (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb j)
  exact stored_eq_G' (m ((c : Thread nD τ).loc main_arg0)) (m ((c : Thread nD τ).loc main_arg1)) (m ((c : Thread nD τ).loc main_arg2)) (m ((c : Thread nD τ).loc main_arg3)) (m ((c : Thread nD τ).loc main_arg4))
    (iblk m c 0 t) (iblk m c 1 t) (iblk m c 2 t) (iblk m c 3 t) (iblk m c 4 t) (iblk m c 5 t)
    (((cfg0.win 6).blk t).view.emb j) j
    (fun d => input_block_apply m c t (j 0) d ((((cfg0.win 6).blk t).view.emb j) 0) (by
      show win0_6.index t (0 : Fin 2) * 16384 + 1 * (j 0).val = t.val * 16384 + (j 0).val
      rw [e0]; omega))
    (fun d k => weight_block_apply m c t d k)
    (fun k => bias_block_apply m c t k)
    (fun k => sin_weights_block_apply m c t k)
    (fun k => cos_weights_block_apply m c t k)
    (last_bias_block_apply m c t)

/-! ## The blocks cover the result -/

/-- An index of the result is in point `t`'s block iff each coordinate is in the block's range on its axis. -/
theorem mem_block (t : Fin cfg0.N) (i : S262144x256.Idx) :
    i ∈ ((cfg0.win 6).blk t).view.set ↔ ∀ a : Fin 2, win0_6.index t a * S16384x256.size a ≤ (i a).val
      ∧ (i a).val < win0_6.index t a * S16384x256.size a + S16384x256.size a := by
  show i ∈ ((View.whole main_v8).slice (win0_6.rect t)).set ↔ _
  rw [View.set_slice_whole, Rect.mem_set_unit]
  exact Iff.rfl

/-- Row `r` of the result lies in the block of the point whose row block is `r / 16384`. -/
theorem covered (i : S262144x256.Idx) :
    ∃ t : Fin cfg0.N, (cfg0.win 6).flush t = true ∧ i ∈ ((cfg0.win 6).blk t).view.set := by
  have hi0 : (i 0).val < 262144 := (i 0).isLt
  have hi1 : (i 1).val < 256 := (i 1).isLt
  obtain ⟨t, ht⟩ := block_onto ⟨(i 0).val / 16384, by omega⟩
  have q0 : win0_6.index t (0 : Fin 2) = (i 0).val / 16384 := congrFun ht 0
  have q1 : win0_6.index t (1 : Fin 2) = 0 := congrFun ht 1
  refine ⟨t, flush0_6 t, ?_⟩
  rw [mem_block]
  intro a
  match a with
  | ⟨0, _⟩ =>
    show win0_6.index t (0 : Fin 2) * 16384 ≤ (i 0).val ∧ (i 0).val < win0_6.index t (0 : Fin 2) * 16384 + 16384
    omega
  | ⟨1, _⟩ =>
    show win0_6.index t (1 : Fin 2) * 256 ≤ (i 1).val ∧ (i 1).val < win0_6.index t (1 : Fin 2) * 256 + 256
    omega

/-- THE RESULT ARRAY after the run is `G` of the arguments. -/
theorem final (c : Dev nD) : (dats m 0 c).arrAt 6 cfg0.N = G (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 6 (G (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed_eq m c t) covered

/-- The kernel's run, read: the result at `G` of the arguments, the arguments unchanged. -/
theorem run : θ_run defs (onTc (τ := τ) (main (F := Ideal))) ⟨m, fun _ => 0, ρ⟩ fun r => ∀ c : Dev nD,
      r.2.mem ((c : Thread nD τ).loc main_v8) = G (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.KernelValue

end
-- ==== Proof.lean ====
/-
  The proof of `Cert.Claim`.

  Both programs compute, for each of the 262144 rows of the input, ONE number — the row's seven phases `h k = (∑ d, x d · W_s d k)
  + b_s k`, their sines against the upper seven entries of the weight column `W_m` and their cosines against the lower seven,
  summed, plus `b_m` — and write it to all 256 columns of the row (`FourierRow.G`, Proof/FourierRow.lean).

  The reference joins the sines and the cosines into fourteen features and takes ONE product with the fourteen weights; the
  kernel keeps the two halves apart, as two sums of seven products. A sum of fourteen terms is the sum of its first seven plus
  the sum of its last seven, on the extended reals as on the reals, so the two agree at every input: the claim holds without
  using that the inputs are finite (Proof/RefValue.lean: the reference is `G`).

  The kernel works row block by row block: sixteen grid points, point `t` computing rows `16384·t …` from the same rows of the
  input and the whole of the small operands, which the host lays out before the call (the bias as a row, the two halves of
  the weight column as two rows: Proof/HostPrefix.lean). What a point stores is its block of `G` (Proof/BodyValue.lean: the
  stored value at an index; Proof/KernelValue.lean: the blocks, their cover of the result, the run).

  The three frames are the generated runs; nothing was rewritten on the way to the idealized kernel, so `preserves` is `True`.
-/
import proofs.«154484_j65455301591497_2_alg».proof.Defs
import proofs.«154484_j65455301591497_2_alg».proof.Proof.Gen.Kernel
import proofs.«154484_j65455301591497_2_alg».proof.Proof.Gen.Kernel.Skeleton
import proofs.«154484_j65455301591497_2_alg».proof.Proof.Gen.Kernel.Launch
import proofs.«154484_j65455301591497_2_alg».proof.Proof.Gen.Kernel.Points
import proofs.«154484_j65455301591497_2_alg».proof.Proof.Gen.Kernel.Frame
import proofs.«154484_j65455301591497_2_alg».proof.Proof.Gen.KernelIdeal
import proofs.«154484_j65455301591497_2_alg».proof.Proof.Gen.KernelIdeal.Skeleton
import proofs.«154484_j65455301591497_2_alg».proof.Proof.Gen.KernelIdeal.Launch
import proofs.«154484_j65455301591497_2_alg».proof.Proof.Gen.KernelIdeal.Points
import proofs.«154484_j65455301591497_2_alg».proof.Proof.Gen.KernelIdeal.Frame
import proofs.«154484_j65455301591497_2_alg».proof.Proof.Gen.ReferenceIdeal
import proofs.«154484_j65455301591497_2_alg».proof.Proof.Gen.KernelIdeal.Value
import proofs.«154484_j65455301591497_2_alg».proof.Proof.Gen.ReferenceIdeal.Run
import proofs.«154484_j65455301591497_2_alg».proof.Proof.Gen.ReferenceIdeal.Read
import proofs.«154484_j65455301591497_2_alg».proof.Proof.Gen.Pre_finite_inputs
import proofs.«154484_j65455301591497_2_alg».proof.Proof.FourierRow
import proofs.«154484_j65455301591497_2_alg».proof.Proof.RefValue
import proofs.«154484_j65455301591497_2_alg».proof.Proof.KernelValue
import Idealize.ShloMosaic.Adequacy
import Idealize.ShloMosaic.Init

noncomputable section

namespace Cert.Proof

open Idealize.ShloMosaic Idealize.SL.Sem

/-- The word-level kernel runs and leaves its arguments as they were: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the idealized kernel. -/
theorem preserves : Cert.preserves_Kernel_KernelIdeal := trivial

/-- From memories that agree on the five arguments both programs end with the result array at `FourierRow.G` of them. -/
theorem algebraic : Cert.algebraic_KernelIdeal_ReferenceIdeal := by
  intro m ρ m' ρ' _ hagree
  refine ⟨fun c => Cert.FourierRow.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)), Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
